-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S100000x2 : Shape := ⟨2, ![100000, 2]⟩
abbrev S5000x128 : Shape := ⟨2, ![5000, 128]⟩
abbrev S5000x1 : Shape := ⟨2, ![5000, 1]⟩
abbrev S640000x128 : Shape := ⟨2, ![640000, 128]⟩
abbrev S1x128 : Shape := ⟨2, ![1, 128]⟩
abbrev S5000x2 : Shape := ⟨2, ![5000, 2]⟩

abbrev nBuf : Space → Nat
  | .hbm => 75
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S640000, .f32⟩
  | .hbm, ⟨8, _⟩ => ⟨S_, .f32⟩
  | .hbm, ⟨9, _⟩ => ⟨S100000, .f32⟩
  | .hbm, ⟨10, _⟩ => ⟨S640000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S640000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S100000, .f32⟩
  | .hbm, ⟨29, _⟩ => ⟨S100000x1, .f32⟩
  | .hbm, ⟨30, _⟩ => ⟨S100000x2, .f32⟩
  | .hbm, ⟨31, _⟩ => ⟨S100000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .f32⟩
  | .hbm, ⟨42, _⟩ => ⟨S100000x128, .f32⟩
  | .hbm, ⟨43, _⟩ => ⟨S640000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S100000x128, .f32⟩
  | .hbm, ⟨58, _⟩ => ⟨S640000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x128, .f32⟩
  | .hbm, ⟨71, _⟩ => ⟨S_, .f32⟩
  | .hbm, ⟨72, _⟩ => ⟨S100000x128, .f32⟩
  | .hbm, ⟨73, _⟩ => ⟨S640000x1, .i32⟩
  | .hbm, ⟨74, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x2, .f32⟩
  | .local _ .vmem, ⟨9, _⟩ => ⟨S5000x2, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  concatenates_S100000x1_S100000x1_S100000x2_d1 : Shape.Concatenates [S100000x1, S100000x1] S100000x2 1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  inb_S5000x2_S5000x1_0_0 : ∀ a, (![0, 0] : Fin 2 → Nat) a + S5000x1.size a ≤ S5000x2.size a
  inb_S5000x2_S5000x1_0_1 : ∀ a, (![0, 1] : Fin 2 → Nat) a + S5000x1.size a ≤ S5000x2.size a
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S640000, .f32⟩
  | .hbm, ⟨8, _⟩ => ⟨S_, .f32⟩
  | .hbm, ⟨9, _⟩ => ⟨S100000, .f32⟩
  | .hbm, ⟨10, _⟩ => ⟨S640000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S640000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .f32⟩
  | .hbm, ⟨38, _⟩ => ⟨S_, .f32⟩
  | .hbm, ⟨39, _⟩ => ⟨S100000x128, .f32⟩
  | .hbm, ⟨40, _⟩ => ⟨S640000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S100000x128, .f32⟩
  | .hbm, ⟨62, _⟩ => ⟨S640000x1, .i32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S_, .f32⟩
  | .hbm, ⟨81, _⟩ => ⟨S100000x128, .f32⟩
  | .hbm, ⟨82, _⟩ => ⟨S640000x1, .i32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, with EVERY buffer's final contents in its post.

  @main is eleven segments: host stretches and three kernel launches. The contents of the TensorCore's buffers at each
  segment boundary are a fold from the launch memory (`Gen.W0` … `Gen.W11`): a host stretch applies its operations, a
  launch replaces its output array by what the grid's write-backs leave. Every weakly fair execution terminates with each
  unscoped buffer at the last boundary's contents `Gen.W11`; the result array is one of them.
-/
import proofs.«130971_j21534966022320_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and any property of the final memory that follows
    from "every unscoped buffer holds the last boundary's contents" holds of it: the segments launched together, the last
    thread state read against the final state. -/
theorem run_ends {Q : PUnit × MemSt nD τ sig (Elt F) → Prop}
    (hQ : ∀ s : MemSt nD τ sig (Elt F),
      (∀ c : Dev nD, ∀ b ∈ Pipeline.ucRefs τ sig, s.mem (((c : Thread nD τ)).1, b) = W11 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := hQ)

/-- The run with the result array named: it ends at the last boundary's contents, and the six arguments as launched. -/
theorem run_result : θ_run defs (onTc (τ := τ) (main (F := F))) ⟨m, fun _ => 0, ρ⟩ (fun r => ∀ c : Dev nD,
      r.2.mem ((c.tc : Thread nD τ).loc main_v50) = W11 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_ends m ρ fun s h c =>
    ⟨h c _ (mem_uc main_v50 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c)⟩

end Cert.KernelIdeal.Whole

end
-- ==== Proof.Spec.lean ====
/-
  What the kernel computes, as functions of whole arrays on the extended reals.

  The graph has 100000 nodes with 128 features each and 640000 edges given by two index arrays (sources, destinations).
  A node's out- and in-degree are counted by adding one per edge into a zero vector; each is clamped below at 1 and its
  inverse square root taken: the per-node scales `degScale`. `neighborSum` sends a node-feature matrix to the sum, per
  destination node, of the rows of the edges' source nodes (rows fetched at the source indices, negative ones wrapped,
  then added at the destination indices).

  The three fused stages are row-wise:
    `rowScale x s`        row r of `x` times `s r`;
    `fusedMid a sc b`     `a (r, j) · sc (r, 0) + b j · sc (r, 1)`, the two per-row factors packed as two columns;
    `denseLayer a s W b`  `Σ_k (a (r, k) · s r) · W (k, j) + b j`.
-/
import proofs.«130971_j21534966022320_2_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal
open scoped BigOperators

variable [Cert.KernelIdeal.Facts₀]
open Cert.KernelIdeal.Facts₀

/-- A node-feature matrix, a per-node vector, an edge index array. -/
abbrev Feat := FVec Ideal S100000x128 .f32
abbrev Node := FVec Ideal S100000 .f32
abbrev Edges := IVec S640000 32

/-! ## Degrees and their scales -/

/-- One per edge. -/
def edgeOnes : FVec Ideal S640000 .f32 :=
  broadcastInDim S640000 ![] bcast_S_S640000 (constant (F := Ideal) S_ .f32 0x3F800000#32)

/-- The number of edges at each node of the index array `a`: one added per edge into zeros. -/
def degree (a : Edges) : Node :=
  Host.scatterAdd (F := Ideal) scatter_S100000_S640000x1_S640000_n_0_0_1
    (broadcastInDim S100000 ![] bcast_S_S100000 (constant (F := Ideal) S_ .f32 0x00000000#32))
    (broadcastInDim S640000x1 ![0] bcast_S640000_S640000x1_0 a) edgeOnes

/-- A per-node vector clamped below at one. -/
def clampOne (d : Node) : Node :=
  maximumf (F := Ideal) (broadcastInDim S100000 ![] bcast_S_S100000 (id (constant (F := Ideal) S_ .f32 0x3F800000#32))) d

/-- The inverse square root of the clamped degree. -/
def degScale (a : Edges) : Node := Host.rsqrt (F := Ideal) (s := S100000) (φ := .f32) (clampOne (degree a))

/-! ## The sum over incoming edges -/

/-- Row e of the result is row `src e` of `X` (a negative index counted from the end). -/
def sourceRows (src : Edges) (X : Feat) : FVec Ideal S640000x128 .f32 :=
  Host.gather (α := Ideal .f32) gather_S100000x128_S640000x1_S640000x128_1_0_n_n_0_1_1128 X
    (broadcastInDim S640000x1 ![0] bcast_S640000_S640000x1_0
      (select (cmpi .slt src (broadcastInDim S640000 ![] bcast_S_S640000 (constantI S_ 32 0#32)))
        (addi src (broadcastInDim S640000 ![] bcast_S_S640000 (constantI S_ 32 100000#32))) src))

/-- Per destination node, the sum of the source nodes' rows of `X` over the incoming edges. -/
def neighborSum (src dst : Edges) (X : Feat) : Feat :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0 dst) (sourceRows src X)

/-! ## Layouts the kernel's host side uses -/

/-- A per-node vector as a one-column matrix. -/
def asColumn (x : Node) : FVec Ideal S100000x1 .f32 :=
  shapeCast S100000x1 x shapeCasts_S100000_S100000x1

/-- A bias vector as a one-row matrix. -/
def asRow (b : FVec Ideal S128 .f32) : FVec Ideal S1x128 .f32 :=
  shapeCast S1x128 b shapeCasts_S128_S1x128

/-- The two per-node factors of the middle stage side by side: column 0 the product of the in- and out-degree scales,
    column 1 the out-degree scale. -/
def packedScales (src dst : Edges) : FVec Ideal S100000x2 .f32 :=
  concatenate S100000x2 1 [⟨S100000x1, asColumn (mulf (F := Ideal) (degScale dst) (degScale src))⟩, ⟨S100000x1, asColumn (degScale src)⟩]
    concatenates_S100000x1_S100000x1_S100000x2_d1

/-! ## The three row-wise stages -/

/-- Row r of `x` times the per-row factor `s (r, 0)`. -/
def rowScale (x : Feat) (s : FVec Ideal S100000x1 .f32) : Feat :=
  fun i => x i * s (ix2 (i 0 : Fin 100000) (0 : Fin 1))

/-- `a (r, j) · sc (r, 0) + b (0, j) · sc (r, 1)`. -/
def fusedMid (a : Feat) (sc : FVec Ideal S100000x2 .f32)
    (b : FVec Ideal S1x128 .f32) : Feat :=
  fun i => a i * sc (ix2 (i 0 : Fin 100000) (0 : Fin 2)) + b (ix2 (0 : Fin 1) (i 1 : Fin 128)) * sc (ix2 (i 0 : Fin 100000) (1 : Fin 2))

/-- `Σ_k (a (r, k) · s (r, 0)) · W (k, j) + b (0, j)`. -/
def denseLayer (a : Feat) (s : FVec Ideal S100000x1 .f32)
    (W : FVec Ideal S128x128 .f32) (b : FVec Ideal S1x128 .f32) : Feat :=
  fun i => (∑ k : Fin 128, (a (ix2 (i 0 : Fin 100000) k) * s (ix2 (i 0 : Fin 100000) (0 : Fin 1))) * W (ix2 k (i 1 : Fin 128)))
    + b (ix2 (0 : Fin 1) (i 1 : Fin 128))

/-! ## The kernel's stages composed -/

section Composed
variable (x : Feat) (src dst : Edges) (W : FVec Ideal S128x128 .f32)
  (b0 b1 : FVec Ideal S128 .f32)

/-- Features scaled by the out-degree scale. -/
def stage0 : Feat := rowScale x (asColumn (degScale src))
/-- The first aggregation, rescaled for both layers at once, the first bias added. -/
def stage1 : Feat := fusedMid (neighborSum src dst (stage0 x src)) (packedScales src dst) (asRow b0)
/-- The second aggregation through the weight matrix, the second bias added. -/
def stage2 : Feat := denseLayer (neighborSum src dst (stage1 x src dst b0)) (asColumn (degScale dst)) W (asRow b1)
/-- The result: one more sum over incoming edges. -/
def result : Feat := neighborSum src dst (stage2 x src dst W b0 b1)

end Composed

end Cert.Spec

end
-- ==== Proof.HostStretches.lean ====
/-
  The host stretches of the idealized kernel's @main, one at a time, from ANY contents of the buffers.

  @main's host operations come in eight stretches between and around the three launches. From contents `V` of the
  TensorCore's buffers, a stretch leaves each buffer it writes at its operations' value of what `V` holds and every
  other buffer as it was. Stated per stretch and per buffer a later segment reads, with `V` a variable, so that no
  statement carries the history before its stretch.
-/
import proofs.«130971_j21534966022320_2_alg».proof.Proof.Gen.KernelIdeal.Launch
import proofs.«130971_j21534966022320_2_alg».proof.Proof.Spec
import Idealize.ShloMosaic.Lib.StableHlo.Run

set_option maxRecDepth 16384

noncomputable section

namespace Cert.KernelIdeal.Stretch

open Cert.KernelIdeal Cert.KernelIdeal.Gen Cert.Spec
open Idealize.ShloMosaic Idealize.ShloMosaic.TcCoe Idealize.SL.Sem Idealize.ShloMosaic.StableHlo

variable (V : Valuation τ sig (Elt Ideal))

/-! ## The five stretches before the first launch: degrees, clamps, scales, layouts -/

/-- The out-degree: one per edge added at the source indices. -/
theorem s0_v3 : StableHlo.after hostOps0 V (Proc.devRef .tc main_v3) = degree (V (Proc.devRef .tc main_arg1)) := by
  after_results <;> rfl
theorem s0_v0 : StableHlo.after hostOps0 V (Proc.devRef .tc main_v0) = edgeOnes := by
  after_results <;> rfl
theorem s0_cst_1 : StableHlo.after hostOps0 V (Proc.devRef .tc main_cst_1) = constant (F := Ideal) S_ .f32 0x3F800000#32 := by
  after_results <;> rfl

theorem s1_v4 : StableHlo.after hostOps0_1 V (Proc.devRef .tc main_v4)
    = maximumf (F := Ideal) (s := S100000) (φ := .f32)
        (broadcastInDim S100000 ![] bcast_S_S100000 (id ((V (Proc.devRef .tc main_cst_1)) : FVec Ideal S_ .f32))) (V (Proc.devRef .tc main_v3)) := by
  after_results <;> rfl

theorem s2_v5 : StableHlo.after hostOps0_2 V (Proc.devRef .tc main_v5) = Host.rsqrt (F := Ideal) (s := S100000) (φ := .f32) (V (Proc.devRef .tc main_v4)) := by
  after_results <;> rfl
/-- The in-degree: one per edge added at the destination indices. -/
theorem s2_v8 : StableHlo.after hostOps0_2 V (Proc.devRef .tc main_v8)
    = Host.scatterAdd (F := Ideal) scatter_S100000_S640000x1_S640000_n_0_0_1
        (broadcastInDim S100000 ![] bcast_S_S100000 (constant (F := Ideal) S_ .f32 0x00000000#32))
        (broadcastInDim S640000x1 ![0] bcast_S640000_S640000x1_0 (V (Proc.devRef .tc main_arg2))) (V (Proc.devRef .tc main_v0)) := by
  after_results <;> rfl
theorem s2_cst_3 : StableHlo.after hostOps0_2 V (Proc.devRef .tc main_cst_3) = constant (F := Ideal) S_ .f32 0x3F800000#32 := by
  after_results <;> rfl

theorem s3_v9 : StableHlo.after hostOps0_3 V (Proc.devRef .tc main_v9)
    = maximumf (F := Ideal) (s := S100000) (φ := .f32)
        (broadcastInDim S100000 ![] bcast_S_S100000 (id ((V (Proc.devRef .tc main_cst_3)) : FVec Ideal S_ .f32))) (V (Proc.devRef .tc main_v8)) := by
  after_results <;> rfl

/-- The out-degree scale as a column. -/
theorem s4_v11 : StableHlo.after hostOps0_4 V (Proc.devRef .tc main_v11) = asColumn (V (Proc.devRef .tc main_v5)) := by
  after_results <;> rfl
/-- The in-degree scale as a column. -/
theorem s4_v12 : StableHlo.after hostOps0_4 V (Proc.devRef .tc main_v12)
    = asColumn (Host.rsqrt (F := Ideal) (s := S100000) (φ := .f32) (V (Proc.devRef .tc main_v9))) := by
  after_results <;> rfl
/-- The two packed factors. -/
theorem s4_v15 : StableHlo.after hostOps0_4 V (Proc.devRef .tc main_v15)
    = concatenate S100000x2 1
        [⟨S100000x1, asColumn (mulf (F := Ideal) (Host.rsqrt (F := Ideal) (s := S100000) (φ := .f32) (V (Proc.devRef .tc main_v9))) (V (Proc.devRef .tc main_v5)))⟩,
         ⟨S100000x1, asColumn (V (Proc.devRef .tc main_v5))⟩] concatenates_S100000x1_S100000x1_S100000x2_d1 := by
  after_results <;> rfl

/-! ## Buffers a stretch leaves alone -/
theorem s0_keep_arg0 : StableHlo.after hostOps0 V (Proc.devRef .tc main_arg0) = (V (Proc.devRef .tc main_arg0)) := by after_results
theorem s0_keep_arg1 : StableHlo.after hostOps0 V (Proc.devRef .tc main_arg1) = (V (Proc.devRef .tc main_arg1)) := by after_results
theorem s0_keep_arg2 : StableHlo.after hostOps0 V (Proc.devRef .tc main_arg2) = (V (Proc.devRef .tc main_arg2)) := by after_results
theorem s0_keep_arg3 : StableHlo.after hostOps0 V (Proc.devRef .tc main_arg3) = (V (Proc.devRef .tc main_arg3)) := by after_results
theorem s0_keep_arg4 : StableHlo.after hostOps0 V (Proc.devRef .tc main_arg4) = (V (Proc.devRef .tc main_arg4)) := by after_results
theorem s0_keep_arg5 : StableHlo.after hostOps0 V (Proc.devRef .tc main_arg5) = (V (Proc.devRef .tc main_arg5)) := by after_results
theorem s1_keep_arg0 : StableHlo.after hostOps0_1 V (Proc.devRef .tc main_arg0) = (V (Proc.devRef .tc main_arg0)) := by after_results
theorem s1_keep_arg1 : StableHlo.after hostOps0_1 V (Proc.devRef .tc main_arg1) = (V (Proc.devRef .tc main_arg1)) := by after_results
theorem s1_keep_arg2 : StableHlo.after hostOps0_1 V (Proc.devRef .tc main_arg2) = (V (Proc.devRef .tc main_arg2)) := by after_results
theorem s1_keep_arg3 : StableHlo.after hostOps0_1 V (Proc.devRef .tc main_arg3) = (V (Proc.devRef .tc main_arg3)) := by after_results
theorem s1_keep_arg4 : StableHlo.after hostOps0_1 V (Proc.devRef .tc main_arg4) = (V (Proc.devRef .tc main_arg4)) := by after_results
theorem s1_keep_arg5 : StableHlo.after hostOps0_1 V (Proc.devRef .tc main_arg5) = (V (Proc.devRef .tc main_arg5)) := by after_results
theorem s1_keep_v0 : StableHlo.after hostOps0_1 V (Proc.devRef .tc main_v0) = (V (Proc.devRef .tc main_v0)) := by after_results
theorem s2_keep_arg0 : StableHlo.after hostOps0_2 V (Proc.devRef .tc main_arg0) = (V (Proc.devRef .tc main_arg0)) := by after_results
theorem s2_keep_arg1 : StableHlo.after hostOps0_2 V (Proc.devRef .tc main_arg1) = (V (Proc.devRef .tc main_arg1)) := by after_results
theorem s2_keep_arg2 : StableHlo.after hostOps0_2 V (Proc.devRef .tc main_arg2) = (V (Proc.devRef .tc main_arg2)) := by after_results
theorem s2_keep_arg3 : StableHlo.after hostOps0_2 V (Proc.devRef .tc main_arg3) = (V (Proc.devRef .tc main_arg3)) := by after_results
theorem s2_keep_arg4 : StableHlo.after hostOps0_2 V (Proc.devRef .tc main_arg4) = (V (Proc.devRef .tc main_arg4)) := by after_results
theorem s2_keep_arg5 : StableHlo.after hostOps0_2 V (Proc.devRef .tc main_arg5) = (V (Proc.devRef .tc main_arg5)) := by after_results
theorem s3_keep_arg0 : StableHlo.after hostOps0_3 V (Proc.devRef .tc main_arg0) = (V (Proc.devRef .tc main_arg0)) := by after_results
theorem s3_keep_arg1 : StableHlo.after hostOps0_3 V (Proc.devRef .tc main_arg1) = (V (Proc.devRef .tc main_arg1)) := by after_results
theorem s3_keep_arg2 : StableHlo.after hostOps0_3 V (Proc.devRef .tc main_arg2) = (V (Proc.devRef .tc main_arg2)) := by after_results
theorem s3_keep_arg3 : StableHlo.after hostOps0_3 V (Proc.devRef .tc main_arg3) = (V (Proc.devRef .tc main_arg3)) := by after_results
theorem s3_keep_arg4 : StableHlo.after hostOps0_3 V (Proc.devRef .tc main_arg4) = (V (Proc.devRef .tc main_arg4)) := by after_results
theorem s3_keep_arg5 : StableHlo.after hostOps0_3 V (Proc.devRef .tc main_arg5) = (V (Proc.devRef .tc main_arg5)) := by after_results
theorem s3_keep_v5 : StableHlo.after hostOps0_3 V (Proc.devRef .tc main_v5) = (V (Proc.devRef .tc main_v5)) := by after_results
theorem s4_keep_arg0 : StableHlo.after hostOps0_4 V (Proc.devRef .tc main_arg0) = (V (Proc.devRef .tc main_arg0)) := by after_results
theorem s4_keep_arg1 : StableHlo.after hostOps0_4 V (Proc.devRef .tc main_arg1) = (V (Proc.devRef .tc main_arg1)) := by after_results
theorem s4_keep_arg2 : StableHlo.after hostOps0_4 V (Proc.devRef .tc main_arg2) = (V (Proc.devRef .tc main_arg2)) := by after_results
theorem s4_keep_arg3 : StableHlo.after hostOps0_4 V (Proc.devRef .tc main_arg3) = (V (Proc.devRef .tc main_arg3)) := by after_results
theorem s4_keep_arg4 : StableHlo.after hostOps0_4 V (Proc.devRef .tc main_arg4) = (V (Proc.devRef .tc main_arg4)) := by after_results
theorem s4_keep_arg5 : StableHlo.after hostOps0_4 V (Proc.devRef .tc main_arg5) = (V (Proc.devRef .tc main_arg5)) := by after_results
theorem s5_keep_arg1 : StableHlo.after hostOps1 V (Proc.devRef .tc main_arg1) = (V (Proc.devRef .tc main_arg1)) := by after_results
theorem s5_keep_arg2 : StableHlo.after hostOps1 V (Proc.devRef .tc main_arg2) = (V (Proc.devRef .tc main_arg2)) := by after_results
theorem s5_keep_arg3 : StableHlo.after hostOps1 V (Proc.devRef .tc main_arg3) = (V (Proc.devRef .tc main_arg3)) := by after_results
theorem s5_keep_arg5 : StableHlo.after hostOps1 V (Proc.devRef .tc main_arg5) = (V (Proc.devRef .tc main_arg5)) := by after_results
theorem s5_keep_v12 : StableHlo.after hostOps1 V (Proc.devRef .tc main_v12) = (V (Proc.devRef .tc main_v12)) := by after_results
theorem s5_keep_v15 : StableHlo.after hostOps1 V (Proc.devRef .tc main_v15) = (V (Proc.devRef .tc main_v15)) := by after_results
theorem s6_keep_arg1 : StableHlo.after hostOps2 V (Proc.devRef .tc main_arg1) = (V (Proc.devRef .tc main_arg1)) := by after_results
theorem s6_keep_arg2 : StableHlo.after hostOps2 V (Proc.devRef .tc main_arg2) = (V (Proc.devRef .tc main_arg2)) := by after_results
theorem s6_keep_arg3 : StableHlo.after hostOps2 V (Proc.devRef .tc main_arg3) = (V (Proc.devRef .tc main_arg3)) := by after_results
theorem s6_keep_v12 : StableHlo.after hostOps2 V (Proc.devRef .tc main_v12) = (V (Proc.devRef .tc main_v12)) := by after_results

/-! ## The three stretches after the launches: a sum over incoming edges each, and a bias laid as a row -/

theorem s5_v26 : StableHlo.after hostOps1 V (Proc.devRef .tc main_v26) = neighborSum (V (Proc.devRef .tc main_arg1)) (V (Proc.devRef .tc main_arg2)) (V (Proc.devRef .tc main_v16)) := by
  after_results <;> rfl
theorem s5_v27 : StableHlo.after hostOps1 V (Proc.devRef .tc main_v27) = asRow (V (Proc.devRef .tc main_arg4)) := by
  after_results <;> rfl
theorem s6_v38 : StableHlo.after hostOps2 V (Proc.devRef .tc main_v38) = neighborSum (V (Proc.devRef .tc main_arg1)) (V (Proc.devRef .tc main_arg2)) (V (Proc.devRef .tc main_v28)) := by
  after_results <;> rfl
theorem s6_v39 : StableHlo.after hostOps2 V (Proc.devRef .tc main_v39) = asRow (V (Proc.devRef .tc main_arg5)) := by
  after_results <;> rfl
theorem s7_v50 : StableHlo.after hostOps3 V (Proc.devRef .tc main_v50) = neighborSum (V (Proc.devRef .tc main_arg1)) (V (Proc.devRef .tc main_arg2)) (V (Proc.devRef .tc main_v40)) := by
  after_results <;> rfl

end Cert.KernelIdeal.Stretch

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.Stage0.lean ====
/-
  The first launch: every row of the feature matrix times its node's factor.

  The grid has 20 points; point t works on rows 5000·t … 5000·t + 4999 of the [100000, 128] matrix and of the
  one-column [100000, 1] factor, and writes the same rows of the output. So what point t writes back is block t of ONE
  whole-array function (`Spec.rowScale` of the two arrays as the launch finds them), the 20 blocks cover every row, and
  the output array ends holding that function.
-/
import proofs.«130971_j21534966022320_2_alg».proof.Proof.Gen.KernelIdeal.Frame
import proofs.«130971_j21534966022320_2_alg».proof.Proof.Spec
import proofs.«130971_j21534966022320_2_alg».proof.Proof.LibRowwise
import Idealize.ShloMosaic.Lib.Pipeline.Value
import Idealize.ShloMosaic.Lib.ValueIdx

set_option maxRecDepth 16384

noncomputable section

namespace Cert.KernelIdeal.Stage0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The body's value at (p, q) of a block: the block's entry times the factor of row p. -/
theorem body_apply (x0 : Vec Ideal S5000x128 .f32) (x1 : Vec Ideal S5000x1 .f32) (p : Fin 5000) (q : Fin 128) :
    k0_pay1 x0 x1 (ix2 p q) = x0 (ix2 p q) * x1 (ix2 p (0 : Fin 1)) := by
  unfold k0_pay1
  show x0 (ix2 p q) * broadcastTo S5000x128 (shapeCast S5000x1 x1 shapeCasts_S5000x1_S5000x1) broadcasts_S5000x1_S5000x128 (ix2 p q) = _
  rw [Cert.LibRowwise.broadcastTo_a1_ab_apply, shapeCast_self]

/-- Where the windows' blocks sit at point t: all three on row block t, column block 0. -/
theorem block_positions : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 19
    ∧ win0_2.index t (1 : Fin 2) = 0 :=
  (by decide +kernel : ∀ t : Fin grid0.N, _)

/-- Every row block is some point's. -/
theorem block_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of the row-scaled matrix. -/
theorem flushed_eq (c : Dev nD) (t : Fin cfg0.N) :
    (dat0 V c).flushed 2 t
      = ((cfg0.win 2).blk t).view.read (Elt Ideal) (Cert.Spec.rowScale (V c main_arg0) (V c main_v11)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S5000x1) zeros]
  obtain ⟨e0, e1, e2, e3, e4, e5⟩ := block_positions t
  funext j
  obtain ⟨p, q, rfl⟩ : ∃ (p : Fin 5000) (q : Fin 128), j = ix2 p q := ⟨j 0, j 1, eq_ix2 j⟩
  refine (body_apply (iblk0 V c 0 t) (iblk0 V c 1 t) p q).trans ?_
  have hp : p.val < 5000 := p.isLt
  have hq : q.val < 128 := q.isLt
  have h0 : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = win0_2.index t (1 : Fin 2) * 128 + 1 * q.val; omega
  have h1 : ((cfg0.win 1).blk t).view.emb (ix2 p (0 : Fin 1))
      = ix2 ((((cfg0.win 2).blk t).view.emb (ix2 p q)) 0 : Fin 100000) (0 : Fin 1) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  exact congrArg₂ (fun a b : EReal => a * b) (congrArg (V c main_arg0) h0) (congrArg (V c main_v11) h1)

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v16).slice (win0_2.rect t)).set ↔ _
  rw [View.set_slice_whole, Rect.mem_set_unit]
  exact Iff.rfl

/-- Row r lies in the block of the point on row block r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array holds the row-scaled matrix. -/
theorem final (c : Dev nD) :
    (dat0 V c).arrAt 2 cfg0.N = Cert.Spec.rowScale (V c main_arg0) (V c main_v11) :=
  (dat0 V c).arrAt_eq_of_cover 2 _ (fun t _ => flushed_eq V c t) cover

end Cert.KernelIdeal.Stage0

end
-- ==== Proof.Stage1.lean ====
/-
  The second launch: the first aggregation rescaled for both layers at once, the first bias added.

  Point t of the 20 works on rows 5000·t … 5000·t + 4999: of the aggregated matrix, of the two-column matrix of per-row
  factors (its column 0 and column 1 each loaded as a one-column block) and of the output; the one-row bias is the same
  block at every point. So what point t writes back is block t of `Spec.fusedMid` of the three arrays as the launch finds
  them, the blocks cover every row, and the output array ends holding that function.
-/
import proofs.«130971_j21534966022320_2_alg».proof.Proof.Gen.KernelIdeal.Frame
import proofs.«130971_j21534966022320_2_alg».proof.Proof.Spec
import proofs.«130971_j21534966022320_2_alg».proof.Proof.LibRowwise
import Idealize.ShloMosaic.Lib.Pipeline.Value
import Idealize.ShloMosaic.Lib.ValueIdx
import Idealize.ShloMosaic.Lib.ValueLayout

set_option maxRecDepth 16384

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The body's value at (p, q) of a block: the entry times the first factor of row p, plus the bias of column q times
    the second factor of row p. -/
theorem body_apply (v0 v2 : Vec Ideal S5000x1 .f32) (v4 : Vec Ideal S5000x128 .f32) (v8 : Vec Ideal S1x128 .f32)
    (p : Fin 5000) (q : Fin 128) :
    k1_pay1 v0 v2 v4 v8 (ix2 p q)
      = v4 (ix2 p q) * v0 (ix2 p (0 : Fin 1)) + v8 (ix2 (0 : Fin 1) q) * v2 (ix2 p (0 : Fin 1)) := by
  unfold k1_pay1
  show shapeCast S5000x128 v4 shapeCasts_S5000x128_S5000x128 (ix2 p q)
        * broadcastTo S5000x128 (shapeCast S5000x1 v0 shapeCasts_S5000x1_S5000x1) broadcasts_S5000x1_S5000x128 (ix2 p q)
      + broadcastTo S5000x128 (shapeCast S1x128 v8 shapeCasts_S1x128_S1x128) broadcasts_S1x128_S5000x128 (ix2 p q)
        * broadcastTo S5000x128 (shapeCast S5000x1 v2 shapeCasts_S5000x1_S5000x1) broadcasts_S5000x1_S5000x128 (ix2 p q) = _
  rw [Cert.LibRowwise.broadcastTo_a1_ab_apply, Cert.LibRowwise.broadcastTo_a1_ab_apply, broadcastTo_1b_ab_apply,
    shapeCast_self, shapeCast_self, shapeCast_self, shapeCast_self]

/-- Where the windows' blocks sit at point t: the matrices on row block t, the bias on its one block. -/
theorem block_positions : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) ≤ 19
    ∧ win1_3.index t (1 : Fin 2) = 0 :=
  (by decide +kernel : ∀ t : Fin grid1.N, _)

/-- Every row block is some point's. -/
theorem block_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of the fused middle stage. -/
theorem flushed_eq (c : Dev nD) (t : Fin cfg1.N) :
    (dat1 V c).flushed 3 t
      = ((cfg1.win 3).blk t).view.read (Elt Ideal) (Cert.Spec.fusedMid (V c main_v26) (V c main_v15) (V c main_v27)) := by
  show (cfg1.win 3).cut (grid1.coords t) ((dat1 V c).after 3 t) = _
  rw [after1_3]
  unfold out1_3
  rw [View.canon_unit_zero zeros]
  simp only [View.ld_unit_zero (S := S5000x128) zeros, View.ld_unit_zero (S := S1x128) zeros]
  obtain ⟨e0, e1, e2, e3, e4, e5, e6, e7⟩ := block_positions t
  funext j
  obtain ⟨p, q, rfl⟩ : ∃ (p : Fin 5000) (q : Fin 128), j = ix2 p q := ⟨j 0, j 1, eq_ix2 j⟩
  refine (body_apply (View.ld (iblk1 V c 1 t) r1_0) (View.ld (iblk1 V c 1 t) r1_1) (iblk1 V c 0 t) (iblk1 V c 2 t) p q).trans ?_
  have hp : p.val < 5000 := p.isLt
  have hq : q.val < 128 := q.isLt
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1a : ((cfg1.win 1).blk t).view.emb (r1_0.idx (ix2 p (0 : Fin 1)))
      = ix2 ((((cfg1.win 3).blk t).view.emb (ix2 p q)) 0 : Fin 100000) (0 : Fin 2) := by
    funext a; apply Fin.ext
    match a with
    | ⟨0, _⟩ => show win1_1.index t (0 : Fin 2) * 5000 + 1 * (0 + 1 * p.val) = win1_3.index t (0 : Fin 2) * 5000 + 1 * p.val; omega
    | ⟨1, _⟩ => show win1_1.index t (1 : Fin 2) * 2 + 1 * (0 + 1 * 0) = 0; omega
  have h1b : ((cfg1.win 1).blk t).view.emb (r1_1.idx (ix2 p (0 : Fin 1)))
      = ix2 ((((cfg1.win 3).blk t).view.emb (ix2 p q)) 0 : Fin 100000) (1 : Fin 2) := by
    funext a; apply Fin.ext
    match a with
    | ⟨0, _⟩ => show win1_1.index t (0 : Fin 2) * 5000 + 1 * (0 + 1 * p.val) = win1_3.index t (0 : Fin 2) * 5000 + 1 * p.val; omega
    | ⟨1, _⟩ => show win1_1.index t (1 : Fin 2) * 2 + 1 * (1 + 1 * 0) = 1; omega
  have h2 : ((cfg1.win 2).blk t).view.emb (ix2 (0 : Fin 1) q)
      = ix2 (0 : Fin 1) ((((cfg1.win 3).blk t).view.emb (ix2 p q)) 1 : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  exact congrArg₂ (fun a b : EReal => a + b)
    (congrArg₂ (fun a b : EReal => a * b) (congrArg (V c main_v26) h0) (congrArg (V c main_v15) h1a))
    (congrArg₂ (fun a b : EReal => a * b) (congrArg (V c main_v27) h2) (congrArg (V c main_v15) h1b))

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v28).slice (win1_3.rect t)).set ↔ _
  rw [View.set_slice_whole, Rect.mem_set_unit]
  exact Iff.rfl

/-- Row r lies in the block of the point on row block r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the launch the output array holds the fused middle stage. -/
theorem final (c : Dev nD) :
    (dat1 V c).arrAt 3 cfg1.N = Cert.Spec.fusedMid (V c main_v26) (V c main_v15) (V c main_v27) :=
  (dat1 V c).arrAt_eq_of_cover 3 _ (fun t _ => flushed_eq V c t) cover

end Cert.KernelIdeal.Stage1

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.Stage2.lean ====
/-
  The third launch: the second aggregation scaled per row, multiplied by the weight matrix, the second bias added.

  Point t of the 20 works on rows 5000·t … 5000·t + 4999 of the aggregated matrix, of the one-column factor and of the
  output; the [128, 128] weights and the one-row bias are the same block at every point. The product is taken into a
  zero accumulator, so at (p, q) it is the sum over k of (entry (p, k) · factor p) · weight (k, q) — the operands'
  change of format is the identity on the extended reals. So what point t writes back is block t of `Spec.denseLayer`
  of the four arrays as the launch finds them, the blocks cover every row, and the output array ends holding it.
-/
import proofs.«130971_j21534966022320_2_alg».proof.Proof.Gen.KernelIdeal.Frame
import proofs.«130971_j21534966022320_2_alg».proof.Proof.Spec
import proofs.«130971_j21534966022320_2_alg».proof.Proof.LibRowwise
import proofs.«130971_j21534966022320_2_alg».proof.Proof.LibMatmul2d
import Idealize.ShloMosaic.Lib.Pipeline.Value
import Idealize.ShloMosaic.Lib.ValueIdx
import Idealize.ShloMosaic.Lib.ValueLayout

set_option maxRecDepth 16384

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The body's value at (p, q) of a block. -/
theorem body_apply (v0 : Vec Ideal S5000x128 .f32) (v2 : Vec Ideal S5000x1 .f32) (v7 : Vec Ideal S128x128 .f32)
    (v10 : Vec Ideal S1x128 .f32) (p : Fin 5000) (q : Fin 128) :
    k2_pay1 v0 v2 v7 v10 (ix2 p q)
      = (∑ k : Fin 128, (v0 (ix2 p k) * v2 (ix2 p (0 : Fin 1))) * v7 (ix2 k q)) + v10 (ix2 (0 : Fin 1) q) := by
  unfold k2_pay1
  show FloatOps.matmul (F := Ideal) dot_S5000x128_S128x128_S5000x128_1_0_0_1_n_n none
          (truncf (F := Ideal) .bf16 (mulf (F := Ideal) (shapeCast S5000x128 v0 shapeCasts_S5000x128_S5000x128)
            (broadcastTo S5000x128 (shapeCast S5000x1 v2 shapeCasts_S5000x1_S5000x1) broadcasts_S5000x1_S5000x128)) bitsLt_bf16_f32)
          (truncf (F := Ideal) .bf16 v7 bitsLt_bf16_f32) (constant (F := Ideal) S5000x128 .f32 0x00000000#32) (ix2 p q)
      + broadcastTo S5000x128 (shapeCast S1x128 v10 shapeCasts_S1x128_S1x128) broadcasts_S1x128_S5000x128 (ix2 p q) = _
  rw [show dot_S5000x128_S128x128_S5000x128_1_0_0_1_n_n = DotDims.plain 5000 128 128 from rfl,
    Cert.LibMatmul2d.matmul_plain_apply, broadcastTo_1b_ab_apply, shapeCast_self, shapeCast_self, shapeCast_self]
  refine congrArg (· + v10 (ix2 (0 : Fin 1) q)) (Finset.sum_congr rfl fun k _ => ?_)
  show (v0 (ix2 p k) * broadcastTo S5000x128 v2 broadcasts_S5000x1_S5000x128 (ix2 p k)) * v7 (ix2 k q) = _
  rw [Cert.LibRowwise.broadcastTo_a1_ab_apply]

/-- Where the windows' blocks sit at point t. -/
theorem block_positions : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) ≤ 19
    ∧ win2_4.index t (1 : Fin 2) = 0 :=
  (by decide +kernel : ∀ t : Fin grid2.N, _)

/-- Every row block is some point's. -/
theorem block_onto : ∀ q0 : Fin 20, ∃ t : Fin cfg2.N, win2_4.index t = ![q0.val, 0] :=
  (by decide +kernel : ∀ q0 : Fin 20, ∃ t : Fin grid2.N, win2_4.index t = ![q0.val, 0])

/-- What point t writes back is block t of the dense layer. -/
theorem flushed_eq (c : Dev nD) (t : Fin cfg2.N) :
    (dat2 V c).flushed 4 t
      = ((cfg2.win 4).blk t).view.read (Elt Ideal)
          (Cert.Spec.denseLayer (V c main_v38) (V c main_v12) (V c main_arg3) (V c main_v39)) := by
  show (cfg2.win 4).cut (grid2.coords t) ((dat2 V c).after 4 t) = _
  rw [after2_4]
  unfold out2_4
  rw [View.canon_unit_zero zeros]
  simp only [View.ld_unit_zero (S := S5000x128) zeros, View.ld_unit_zero (S := S5000x1) zeros,
    View.ld_unit_zero (S := S128x128) zeros, View.ld_unit_zero (S := S1x128) zeros]
  obtain ⟨e0, e1, e2, e3, e4, e5, e6, e7, e8, e9⟩ := block_positions t
  funext j
  obtain ⟨p, q, rfl⟩ : ∃ (p : Fin 5000) (q : Fin 128), j = ix2 p q := ⟨j 0, j 1, eq_ix2 j⟩
  refine (body_apply (iblk2 V c 0 t) (iblk2 V c 1 t) (iblk2 V c 2 t) (iblk2 V c 3 t) p q).trans ?_
  have hp : p.val < 5000 := p.isLt
  have hq : q.val < 128 := q.isLt
  have h0 : ∀ k : Fin 128, ((cfg2.win 0).blk t).view.emb (ix2 p k)
      = ix2 ((((cfg2.win 4).blk t).view.emb (ix2 p q)) 0 : Fin 100000) k := by
    intro k
    have hk : k.val < 128 := k.isLt
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * k.val = k.val; omega
  have h1 : ((cfg2.win 1).blk t).view.emb (ix2 p (0 : Fin 1))
      = ix2 ((((cfg2.win 4).blk t).view.emb (ix2 p q)) 0 : Fin 100000) (0 : Fin 1) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 1 + 1 * 0 = 0; omega
  have h2 : ∀ k : Fin 128, ((cfg2.win 2).blk t).view.emb (ix2 k q)
      = ix2 k ((((cfg2.win 4).blk t).view.emb (ix2 p q)) 1 : Fin 128) := by
    intro k
    have hk : k.val < 128 := k.isLt
    funext a; apply Fin.ext
    match a with
    | ⟨0, _⟩ => show win2_2.index t (0 : Fin 2) * 128 + 1 * k.val = k.val; omega
    | ⟨1, _⟩ => show win2_2.index t (1 : Fin 2) * 128 + 1 * q.val = win2_4.index t (1 : Fin 2) * 128 + 1 * q.val; omega
  have h3 : ((cfg2.win 3).blk t).view.emb (ix2 (0 : Fin 1) q)
      = ix2 (0 : Fin 1) ((((cfg2.win 4).blk t).view.emb (ix2 p q)) 1 : Fin 128) := by
    funext a; apply Fin.ext
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega
  exact congrArg₂ (fun a b : EReal => a + b)
    (Finset.sum_congr rfl fun k _ => congrArg₂ (fun a b : EReal => a * b)
      (congrArg₂ (fun a b : EReal => a * b) (congrArg (V c main_v38) (h0 k)) (congrArg (V c main_v12) h1))
      (congrArg (V c main_arg3) (h2 k)))
    (congrArg (V c main_v39) h3)

/-- An index of the array is in point t's block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v40).slice (win2_4.rect t)).set ↔ _
  rw [View.set_slice_whole, Rect.mem_set_unit]
  exact Iff.rfl

/-- Row r lies in the block of the point on row block r / 5000. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := block_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- After the launch the output array holds the dense layer. -/
theorem final (c : Dev nD) :
    (dat2 V c).arrAt 4 cfg2.N = Cert.Spec.denseLayer (V c main_v38) (V c main_v12) (V c main_arg3) (V c main_v39) :=
  (dat2 V c).arrAt_eq_of_cover 4 _ (fun t _ => flushed_eq V c t) cover

end Cert.KernelIdeal.Stage2

end
-- ==== Proof.KernelFold.lean ====
/-
  The buffers' contents at each segment boundary of the idealized kernel's @main, read back to the six arguments.

  The boundaries' contents are a fold from the launch memory: a host stretch applies its operations in order
  (`HostStretches`), a launch replaces its output array by what its grid leaves (`Stage0.final`, `Stage1.final`,
  `Stage2.final`) and keeps every other buffer. Walking the fold boundary by boundary, each buffer a later segment reads
  is named as a function of the arguments — the degree scales and their layouts before the first launch, then
  alternately a stage's output and its sum over incoming edges — until the result array is `Spec.result` of the arguments.
-/
import proofs.«130971_j21534966022320_2_alg».proof.Proof.Gen.KernelIdeal.Frame
import proofs.«130971_j21534966022320_2_alg».proof.Proof.Spec
import proofs.«130971_j21534966022320_2_alg».proof.Proof.HostStretches
import proofs.«130971_j21534966022320_2_alg».proof.Proof.Stage0
import proofs.«130971_j21534966022320_2_alg».proof.Proof.Stage1
import proofs.«130971_j21534966022320_2_alg».proof.Proof.Stage2

set_option maxRecDepth 16384

noncomputable section

namespace Cert.KernelIdeal.Fold

open Cert.KernelIdeal Cert.KernelIdeal.Gen Cert.Spec Cert.KernelIdeal.Stretch
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, untouched through the five stretches before the first launch -/
theorem at1_arg0 : W1 m ρ c (Proc.devRef .tc main_arg0) = (m ((c : Thread nD τ).loc main_arg0)) := s0_keep_arg0 (W0 m ρ c)
theorem at2_arg0 : W2 m ρ c (Proc.devRef .tc main_arg0) = (m ((c : Thread nD τ).loc main_arg0)) := (s1_keep_arg0 (W1 m ρ c)).trans (at1_arg0 m ρ c)
theorem at3_arg0 : W3 m ρ c (Proc.devRef .tc main_arg0) = (m ((c : Thread nD τ).loc main_arg0)) := (s2_keep_arg0 (W2 m ρ c)).trans (at2_arg0 m ρ c)
theorem at4_arg0 : W4 m ρ c (Proc.devRef .tc main_arg0) = (m ((c : Thread nD τ).loc main_arg0)) := (s3_keep_arg0 (W3 m ρ c)).trans (at3_arg0 m ρ c)
theorem at5_arg0 : W5 m ρ c (Proc.devRef .tc main_arg0) = (m ((c : Thread nD τ).loc main_arg0)) := (s4_keep_arg0 (W4 m ρ c)).trans (at4_arg0 m ρ c)
theorem at1_arg1 : W1 m ρ c (Proc.devRef .tc main_arg1) = (m ((c : Thread nD τ).loc main_arg1)) := s0_keep_arg1 (W0 m ρ c)
theorem at2_arg1 : W2 m ρ c (Proc.devRef .tc main_arg1) = (m ((c : Thread nD τ).loc main_arg1)) := (s1_keep_arg1 (W1 m ρ c)).trans (at1_arg1 m ρ c)
theorem at3_arg1 : W3 m ρ c (Proc.devRef .tc main_arg1) = (m ((c : Thread nD τ).loc main_arg1)) := (s2_keep_arg1 (W2 m ρ c)).trans (at2_arg1 m ρ c)
theorem at4_arg1 : W4 m ρ c (Proc.devRef .tc main_arg1) = (m ((c : Thread nD τ).loc main_arg1)) := (s3_keep_arg1 (W3 m ρ c)).trans (at3_arg1 m ρ c)
theorem at5_arg1 : W5 m ρ c (Proc.devRef .tc main_arg1) = (m ((c : Thread nD τ).loc main_arg1)) := (s4_keep_arg1 (W4 m ρ c)).trans (at4_arg1 m ρ c)
theorem at1_arg2 : W1 m ρ c (Proc.devRef .tc main_arg2) = (m ((c : Thread nD τ).loc main_arg2)) := s0_keep_arg2 (W0 m ρ c)
theorem at2_arg2 : W2 m ρ c (Proc.devRef .tc main_arg2) = (m ((c : Thread nD τ).loc main_arg2)) := (s1_keep_arg2 (W1 m ρ c)).trans (at1_arg2 m ρ c)
theorem at3_arg2 : W3 m ρ c (Proc.devRef .tc main_arg2) = (m ((c : Thread nD τ).loc main_arg2)) := (s2_keep_arg2 (W2 m ρ c)).trans (at2_arg2 m ρ c)
theorem at4_arg2 : W4 m ρ c (Proc.devRef .tc main_arg2) = (m ((c : Thread nD τ).loc main_arg2)) := (s3_keep_arg2 (W3 m ρ c)).trans (at3_arg2 m ρ c)
theorem at5_arg2 : W5 m ρ c (Proc.devRef .tc main_arg2) = (m ((c : Thread nD τ).loc main_arg2)) := (s4_keep_arg2 (W4 m ρ c)).trans (at4_arg2 m ρ c)
theorem at1_arg3 : W1 m ρ c (Proc.devRef .tc main_arg3) = (m ((c : Thread nD τ).loc main_arg3)) := s0_keep_arg3 (W0 m ρ c)
theorem at2_arg3 : W2 m ρ c (Proc.devRef .tc main_arg3) = (m ((c : Thread nD τ).loc main_arg3)) := (s1_keep_arg3 (W1 m ρ c)).trans (at1_arg3 m ρ c)
theorem at3_arg3 : W3 m ρ c (Proc.devRef .tc main_arg3) = (m ((c : Thread nD τ).loc main_arg3)) := (s2_keep_arg3 (W2 m ρ c)).trans (at2_arg3 m ρ c)
theorem at4_arg3 : W4 m ρ c (Proc.devRef .tc main_arg3) = (m ((c : Thread nD τ).loc main_arg3)) := (s3_keep_arg3 (W3 m ρ c)).trans (at3_arg3 m ρ c)
theorem at5_arg3 : W5 m ρ c (Proc.devRef .tc main_arg3) = (m ((c : Thread nD τ).loc main_arg3)) := (s4_keep_arg3 (W4 m ρ c)).trans (at4_arg3 m ρ c)
theorem at1_arg4 : W1 m ρ c (Proc.devRef .tc main_arg4) = (m ((c : Thread nD τ).loc main_arg4)) := s0_keep_arg4 (W0 m ρ c)
theorem at2_arg4 : W2 m ρ c (Proc.devRef .tc main_arg4) = (m ((c : Thread nD τ).loc main_arg4)) := (s1_keep_arg4 (W1 m ρ c)).trans (at1_arg4 m ρ c)
theorem at3_arg4 : W3 m ρ c (Proc.devRef .tc main_arg4) = (m ((c : Thread nD τ).loc main_arg4)) := (s2_keep_arg4 (W2 m ρ c)).trans (at2_arg4 m ρ c)
theorem at4_arg4 : W4 m ρ c (Proc.devRef .tc main_arg4) = (m ((c : Thread nD τ).loc main_arg4)) := (s3_keep_arg4 (W3 m ρ c)).trans (at3_arg4 m ρ c)
theorem at5_arg4 : W5 m ρ c (Proc.devRef .tc main_arg4) = (m ((c : Thread nD τ).loc main_arg4)) := (s4_keep_arg4 (W4 m ρ c)).trans (at4_arg4 m ρ c)
theorem at1_arg5 : W1 m ρ c (Proc.devRef .tc main_arg5) = (m ((c : Thread nD τ).loc main_arg5)) := s0_keep_arg5 (W0 m ρ c)
theorem at2_arg5 : W2 m ρ c (Proc.devRef .tc main_arg5) = (m ((c : Thread nD τ).loc main_arg5)) := (s1_keep_arg5 (W1 m ρ c)).trans (at1_arg5 m ρ c)
theorem at3_arg5 : W3 m ρ c (Proc.devRef .tc main_arg5) = (m ((c : Thread nD τ).loc main_arg5)) := (s2_keep_arg5 (W2 m ρ c)).trans (at2_arg5 m ρ c)
theorem at4_arg5 : W4 m ρ c (Proc.devRef .tc main_arg5) = (m ((c : Thread nD τ).loc main_arg5)) := (s3_keep_arg5 (W3 m ρ c)).trans (at3_arg5 m ρ c)
theorem at5_arg5 : W5 m ρ c (Proc.devRef .tc main_arg5) = (m ((c : Thread nD τ).loc main_arg5)) := (s4_keep_arg5 (W4 m ρ c)).trans (at4_arg5 m ρ c)

/-! ## The degree scales and their layouts -/

theorem at1_v3 : W1 m ρ c (Proc.devRef .tc main_v3) = degree (m ((c : Thread nD τ).loc main_arg1)) := s0_v3 (W0 m ρ c)
theorem at1_v0 : W1 m ρ c (Proc.devRef .tc main_v0) = edgeOnes := s0_v0 (W0 m ρ c)
theorem at1_cst_1 : W1 m ρ c (Proc.devRef .tc main_cst_1) = constant (F := Ideal) S_ .f32 0x3F800000#32 := s0_cst_1 (W0 m ρ c)

theorem at2_v4 : W2 m ρ c (Proc.devRef .tc main_v4) = clampOne (degree (m ((c : Thread nD τ).loc main_arg1))) := by
  refine (s1_v4 (W1 m ρ c)).trans ?_
  rw [at1_cst_1, at1_v3]; rfl
theorem at2_v0 : W2 m ρ c (Proc.devRef .tc main_v0) = edgeOnes := (s1_keep_v0 (W1 m ρ c)).trans (at1_v0 m ρ c)

/-- The out-degree scale. -/
theorem at3_v5 : W3 m ρ c (Proc.devRef .tc main_v5) = degScale (m ((c : Thread nD τ).loc main_arg1)) := by
  refine (s2_v5 (W2 m ρ c)).trans ?_
  rw [at2_v4]; rfl
theorem at3_v8 : W3 m ρ c (Proc.devRef .tc main_v8) = degree (m ((c : Thread nD τ).loc main_arg2)) := by
  refine (s2_v8 (W2 m ρ c)).trans ?_
  rw [at2_arg2, at2_v0]; rfl
theorem at3_cst_3 : W3 m ρ c (Proc.devRef .tc main_cst_3) = constant (F := Ideal) S_ .f32 0x3F800000#32 := s2_cst_3 (W2 m ρ c)

theorem at4_v9 : W4 m ρ c (Proc.devRef .tc main_v9) = clampOne (degree (m ((c : Thread nD τ).loc main_arg2))) := by
  refine (s3_v9 (W3 m ρ c)).trans ?_
  rw [at3_cst_3, at3_v8]; rfl
theorem at4_v5 : W4 m ρ c (Proc.devRef .tc main_v5) = degScale (m ((c : Thread nD τ).loc main_arg1)) := (s3_keep_v5 (W3 m ρ c)).trans (at3_v5 m ρ c)

/-- The out-degree scale as a column. -/
theorem at5_v11 : W5 m ρ c (Proc.devRef .tc main_v11) = asColumn (degScale (m ((c : Thread nD τ).loc main_arg1))) := by
  refine (s4_v11 (W4 m ρ c)).trans ?_
  rw [at4_v5]
/-- The in-degree scale as a column. -/
theorem at5_v12 : W5 m ρ c (Proc.devRef .tc main_v12) = asColumn (degScale (m ((c : Thread nD τ).loc main_arg2))) := by
  refine (s4_v12 (W4 m ρ c)).trans ?_
  rw [at4_v9]; rfl
/-- The two packed factors. -/
theorem at5_v15 : W5 m ρ c (Proc.devRef .tc main_v15) = packedScales (m ((c : Thread nD τ).loc main_arg1)) (m ((c : Thread nD τ).loc main_arg2)) := by
  refine (s4_v15 (W4 m ρ c)).trans ?_
  rw [at4_v9, at4_v5]; rfl

/-! ## After the first launch -/

/-- The first launch's output: the features scaled by the out-degree scale. -/
theorem at6_v16 : W6 m ρ c (Proc.devRef .tc main_v16) = stage0 (m ((c : Thread nD τ).loc main_arg0)) (m ((c : Thread nD τ).loc main_arg1)) := by
  refine (W6_arr m ρ c 2).trans ((Stage0.final (V5 m ρ) c).trans ?_)
  show rowScale (W5 m ρ c (Proc.devRef .tc main_arg0)) (W5 m ρ c (Proc.devRef .tc main_v11)) = _
  rw [at5_arg0, at5_v11]; rfl
theorem at6_arg1 : W6 m ρ c (Proc.devRef .tc main_arg1) = (m ((c : Thread nD τ).loc main_arg1)) := (W6_of_ne m ρ c main_arg1 (by decide)).trans (at5_arg1 m ρ c)
theorem at6_arg2 : W6 m ρ c (Proc.devRef .tc main_arg2) = (m ((c : Thread nD τ).loc main_arg2)) := (W6_of_ne m ρ c main_arg2 (by decide)).trans (at5_arg2 m ρ c)
theorem at6_arg3 : W6 m ρ c (Proc.devRef .tc main_arg3) = (m ((c : Thread nD τ).loc main_arg3)) := (W6_of_ne m ρ c main_arg3 (by decide)).trans (at5_arg3 m ρ c)
theorem at6_arg4 : W6 m ρ c (Proc.devRef .tc main_arg4) = (m ((c : Thread nD τ).loc main_arg4)) := (W6_of_ne m ρ c main_arg4 (by decide)).trans (at5_arg4 m ρ c)
theorem at6_arg5 : W6 m ρ c (Proc.devRef .tc main_arg5) = (m ((c : Thread nD τ).loc main_arg5)) := (W6_of_ne m ρ c main_arg5 (by decide)).trans (at5_arg5 m ρ c)
theorem at6_v12 : W6 m ρ c (Proc.devRef .tc main_v12) = asColumn (degScale (m ((c : Thread nD τ).loc main_arg2))) := (W6_of_ne m ρ c main_v12 (by decide)).trans (at5_v12 m ρ c)
theorem at6_v15 : W6 m ρ c (Proc.devRef .tc main_v15) = packedScales (m ((c : Thread nD τ).loc main_arg1)) (m ((c : Thread nD τ).loc main_arg2)) := (W6_of_ne m ρ c main_v15 (by decide)).trans (at5_v15 m ρ c)

/-! ## Before the second launch: the first sum over incoming edges, the first bias as a row -/

theorem at7_v26 : W7 m ρ c (Proc.devRef .tc main_v26) = neighborSum (m ((c : Thread nD τ).loc main_arg1)) (m ((c : Thread nD τ).loc main_arg2)) (stage0 (m ((c : Thread nD τ).loc main_arg0)) (m ((c : Thread nD τ).loc main_arg1))) := by
  refine (s5_v26 (W6 m ρ c)).trans ?_
  rw [at6_arg1, at6_arg2, at6_v16]
theorem at7_v27 : W7 m ρ c (Proc.devRef .tc main_v27) = asRow (m ((c : Thread nD τ).loc main_arg4)) := by
  refine (s5_v27 (W6 m ρ c)).trans ?_
  rw [at6_arg4]
theorem at7_arg1 : W7 m ρ c (Proc.devRef .tc main_arg1) = (m ((c : Thread nD τ).loc main_arg1)) := (s5_keep_arg1 (W6 m ρ c)).trans (at6_arg1 m ρ c)
theorem at7_arg2 : W7 m ρ c (Proc.devRef .tc main_arg2) = (m ((c : Thread nD τ).loc main_arg2)) := (s5_keep_arg2 (W6 m ρ c)).trans (at6_arg2 m ρ c)
theorem at7_arg3 : W7 m ρ c (Proc.devRef .tc main_arg3) = (m ((c : Thread nD τ).loc main_arg3)) := (s5_keep_arg3 (W6 m ρ c)).trans (at6_arg3 m ρ c)
theorem at7_arg5 : W7 m ρ c (Proc.devRef .tc main_arg5) = (m ((c : Thread nD τ).loc main_arg5)) := (s5_keep_arg5 (W6 m ρ c)).trans (at6_arg5 m ρ c)
theorem at7_v12 : W7 m ρ c (Proc.devRef .tc main_v12) = asColumn (degScale (m ((c : Thread nD τ).loc main_arg2))) := (s5_keep_v12 (W6 m ρ c)).trans (at6_v12 m ρ c)
theorem at7_v15 : W7 m ρ c (Proc.devRef .tc main_v15) = packedScales (m ((c : Thread nD τ).loc main_arg1)) (m ((c : Thread nD τ).loc main_arg2)) := (s5_keep_v15 (W6 m ρ c)).trans (at6_v15 m ρ c)

/-! ## After the second launch -/

theorem at8_v28 : W8 m ρ c (Proc.devRef .tc main_v28) = stage1 (m ((c : Thread nD τ).loc main_arg0)) (m ((c : Thread nD τ).loc main_arg1)) (m ((c : Thread nD τ).loc main_arg2)) (m ((c : Thread nD τ).loc main_arg4)) := by
  refine (W8_arr m ρ c 3).trans ((Stage1.final (V7 m ρ) c).trans ?_)
  show fusedMid (W7 m ρ c (Proc.devRef .tc main_v26)) (W7 m ρ c (Proc.devRef .tc main_v15)) (W7 m ρ c (Proc.devRef .tc main_v27)) = _
  rw [at7_v26, at7_v15, at7_v27]; rfl
theorem at8_arg1 : W8 m ρ c (Proc.devRef .tc main_arg1) = (m ((c : Thread nD τ).loc main_arg1)) := (W8_of_ne m ρ c main_arg1 (by decide)).trans (at7_arg1 m ρ c)
theorem at8_arg2 : W8 m ρ c (Proc.devRef .tc main_arg2) = (m ((c : Thread nD τ).loc main_arg2)) := (W8_of_ne m ρ c main_arg2 (by decide)).trans (at7_arg2 m ρ c)
theorem at8_arg3 : W8 m ρ c (Proc.devRef .tc main_arg3) = (m ((c : Thread nD τ).loc main_arg3)) := (W8_of_ne m ρ c main_arg3 (by decide)).trans (at7_arg3 m ρ c)
theorem at8_arg5 : W8 m ρ c (Proc.devRef .tc main_arg5) = (m ((c : Thread nD τ).loc main_arg5)) := (W8_of_ne m ρ c main_arg5 (by decide)).trans (at7_arg5 m ρ c)
theorem at8_v12 : W8 m ρ c (Proc.devRef .tc main_v12) = asColumn (degScale (m ((c : Thread nD τ).loc main_arg2))) := (W8_of_ne m ρ c main_v12 (by decide)).trans (at7_v12 m ρ c)

/-! ## Before the third launch: the second sum over incoming edges, the second bias as a row -/

theorem at9_v38 : W9 m ρ c (Proc.devRef .tc main_v38) = neighborSum (m ((c : Thread nD τ).loc main_arg1)) (m ((c : Thread nD τ).loc main_arg2)) (stage1 (m ((c : Thread nD τ).loc main_arg0)) (m ((c : Thread nD τ).loc main_arg1)) (m ((c : Thread nD τ).loc main_arg2)) (m ((c : Thread nD τ).loc main_arg4))) := by
  refine (s6_v38 (W8 m ρ c)).trans ?_
  rw [at8_arg1, at8_arg2, at8_v28]
theorem at9_v39 : W9 m ρ c (Proc.devRef .tc main_v39) = asRow (m ((c : Thread nD τ).loc main_arg5)) := by
  refine (s6_v39 (W8 m ρ c)).trans ?_
  rw [at8_arg5]
theorem at9_arg1 : W9 m ρ c (Proc.devRef .tc main_arg1) = (m ((c : Thread nD τ).loc main_arg1)) := (s6_keep_arg1 (W8 m ρ c)).trans (at8_arg1 m ρ c)
theorem at9_arg2 : W9 m ρ c (Proc.devRef .tc main_arg2) = (m ((c : Thread nD τ).loc main_arg2)) := (s6_keep_arg2 (W8 m ρ c)).trans (at8_arg2 m ρ c)
theorem at9_arg3 : W9 m ρ c (Proc.devRef .tc main_arg3) = (m ((c : Thread nD τ).loc main_arg3)) := (s6_keep_arg3 (W8 m ρ c)).trans (at8_arg3 m ρ c)
theorem at9_v12 : W9 m ρ c (Proc.devRef .tc main_v12) = asColumn (degScale (m ((c : Thread nD τ).loc main_arg2))) := (s6_keep_v12 (W8 m ρ c)).trans (at8_v12 m ρ c)

/-! ## After the third launch -/

theorem at10_v40 : W10 m ρ c (Proc.devRef .tc main_v40) = stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 4).trans ((Stage2.final (V9 m ρ) c).trans ?_)
  show denseLayer (W9 m ρ c (Proc.devRef .tc main_v38)) (W9 m ρ c (Proc.devRef .tc main_v12)) (W9 m ρ c (Proc.devRef .tc main_arg3)) (W9 m ρ c (Proc.devRef .tc main_v39)) = _
  rw [at9_v38, at9_v12, at9_arg3, at9_v39]; rfl
theorem at10_arg1 : W10 m ρ c (Proc.devRef .tc main_arg1) = (m ((c : Thread nD τ).loc main_arg1)) := (W10_of_ne m ρ c main_arg1 (by decide)).trans (at9_arg1 m ρ c)
theorem at10_arg2 : W10 m ρ c (Proc.devRef .tc main_arg2) = (m ((c : Thread nD τ).loc main_arg2)) := (W10_of_ne m ρ c main_arg2 (by decide)).trans (at9_arg2 m ρ c)

/-! ## The result -/

/-- The result array at the end of @main: the last sum over incoming edges. -/
theorem result_eq : W11 m ρ c (Proc.devRef .tc main_v50) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (s7_v50 (W10 m ρ c)).trans ?_
  rw [at10_arg1, at10_arg2, at10_v40]; rfl

end Cert.KernelIdeal.Fold

end
-- ==== Proof.DegreeScale.lean ====
/-
  The one piece of algebra this certificate needs, on the extended reals.

  Both programs scale rows by the inverse square roots of clamped degrees, `s = rsqrt (max 1 d)`. Whatever the
  degree `d` is, `max 1 d ≥ 1`, so `s` is a real number in `[0, 1]` — never an infinity. Multiplication by such a
  factor distributes over any sum of extended reals, which is what lets the kernel fold
  `(a · p + b) · s` into `a · (p · s) + b · s`.
-/
import Idealize.ShloMosaic.PureOps.Ideal

noncomputable section

namespace Cert.DegreeScale

open Idealize.ShloMosaic

/-- The inverse square root of an extended real that is at least one is a nonnegative real. -/
theorem rsqrt_of_one_le (y : EReal) (h : 1 ≤ y) : 0 ≤ Ideal.rsqrt y ∧ Ideal.rsqrt y ≠ ⊤ := by
  induction y using EReal.rec with
  | bot => exact absurd (le_bot_iff.mp h) (by decide)
  | top => exact ⟨le_of_eq Ideal.rsqrt_top.symm, by rw [Ideal.rsqrt_top]; exact EReal.zero_ne_top⟩
  | coe r =>
    have hr : (1 : ℝ) ≤ r := by exact_mod_cast h
    have h1 : ¬ r < 0 := by linarith
    have h2 : ¬ r = 0 := by linarith
    rw [Ideal.rsqrt_coe, if_neg h1, if_neg h2]
    exact ⟨by exact_mod_cast inv_nonneg.mpr (Real.sqrt_nonneg r), EReal.coe_ne_top _⟩

/-- The word of 1.0 denotes the real number one. -/
theorem ofBits_one : Ideal.ofBits .f32 0x3F800000#32 = 1 := by
  simp [Ideal.ofBits, Ideal.ieee, -EReal.coe_mul]; norm_num

/-- The clamped-degree scale is a nonnegative real, whatever the degree. -/
theorem scale_nonneg_ne_top (d : EReal) : 0 ≤ Ideal.rsqrt (max 1 d) ∧ Ideal.rsqrt (max 1 d) ≠ ⊤ :=
  rsqrt_of_one_le _ (le_max_left 1 d)

/-- Folding two row scales into one: for a nonnegative real factor `s`,
    `a · (p · s) + b · s = (a · p + b) · s` on the extended reals. -/
theorem fold_scales (a p b s : EReal) (h0 : 0 ≤ s) (h1 : s ≠ ⊤) : a * (p * s) + b * s = (a * p + b) * s := by
  rw [EReal.right_distrib_of_nonneg_of_ne_top h0 h1, mul_assoc]

end Cert.DegreeScale

end
-- ==== Proof.Bridge.lean ====
/-
  The reference computes the kernel's function.

  The reference runs two graph-convolution layers and a last sum over incoming edges. Read one operation at a time, its
  stages are: the features times the out-degree scale (the kernel's first stage, the same product); the sum over
  incoming edges; `(a · p + b) · s` with p the in-degree scale, b the first bias and s the out-degree scale, where the
  kernel computes `a · (p · s) + b · s` — equal because s is a nonnegative real (`DegreeScale.fold_scales`); the sum over
  incoming edges; the rows scaled by the in-degree scale, multiplied by the weights (a sum over the 128 inner indices
  on both sides) plus the second bias; the sum over incoming edges. The sums over incoming edges and the degree scales
  are the same printed operations in both programs, so they are never opened.
-/
import proofs.«130971_j21534966022320_2_alg».proof.Proof.Gen.ReferenceIdeal.Read
import proofs.«130971_j21534966022320_2_alg».proof.Proof.Gen.KernelIdeal
import proofs.«130971_j21534966022320_2_alg».proof.Proof.Spec
import proofs.«130971_j21534966022320_2_alg».proof.Proof.DegreeScale
import proofs.«130971_j21534966022320_2_alg».proof.Proof.LibRowwise
import Idealize.ShloMosaic.Lib.Pipeline.Value
import Idealize.ShloMosaic.Lib.ValueIdx
import Idealize.ShloMosaic.Lib.ValueLayout

set_option maxRecDepth 16384

noncomputable section

namespace Cert.Bridge

open Idealize.ShloMosaic Idealize.ShloMosaic.ValueIdx Cert.ReferenceIdeal.Read Cert.Spec
open Cert.ReferenceIdeal.Gen Cert.KernelIdeal.Gen
open scoped BigOperators

variable (x0 : Feat) (x1 x2 : Edges) (x3 : FVec Ideal Cert.KernelIdeal.S128x128 .f32)
  (x4 x5 : FVec Ideal Cert.KernelIdeal.S128 .f32)

/-! ## The shared operations are the same terms -/

/-- The reference's out-degree scale is the kernel's. -/
theorem outScale_eq : val_main_v5 (F := Ideal) x1 = degScale x1 := rfl
/-- The reference's in-degree scale is the kernel's. -/
theorem inScale_eq : val_main_v10 (F := Ideal) x2 = degScale x2 := rfl

/-- The reference's three sums over incoming edges are the kernel's operation. -/
theorem sum1_eq : val_main_v23 (F := Ideal) x0 x1 x2 = neighborSum x1 x2 (val_main_v13 (F := Ideal) x0 x1) := rfl
theorem sum2_eq : val_main_v42 (F := Ideal) x0 x1 x2 x4 = neighborSum x1 x2 (val_main_v32 (F := Ideal) x0 x1 x2 x4) := rfl
theorem sum3_eq : val_main_v59 (F := Ideal) x0 x1 x2 x3 x4 x5
    = neighborSum x1 x2 (val_main_v49 (F := Ideal) x0 x1 x2 x3 x4 x5) := rfl

/-! ## Layouts read at (row, column) -/

/-- A per-node vector as a column reads, at row r, the vector at r. -/
theorem asColumn_apply (x : Node) (r : Fin 100000) : asColumn x (ix2 r (0 : Fin 1)) = x (ix1 r) :=
  Cert.LibRowwise.shapeCast_a_a1_apply x _ r 0

/-- A bias vector as a row reads, at column j, the vector at j. -/
theorem asRow_apply (b : FVec Ideal Cert.KernelIdeal.S128 .f32) (j : Fin 128) : asRow b (ix2 (0 : Fin 1) j) = b (ix1 j) :=
  shapeCast_a_1a_apply b _ 0 j

/-- Column 0 of the packed factors: the product of the in- and out-degree scales. -/
theorem packed_col0 (r : Fin 100000) :
    packedScales x1 x2 (ix2 r (0 : Fin 2)) = degScale x2 (ix1 r) * degScale x1 (ix1 r) := by
  unfold packedScales
  rw [concatenate_pair_apply_left (t := Cert.KernelIdeal.S100000x2) (s₁ := Cert.KernelIdeal.S100000x1)
    (s₂ := Cert.KernelIdeal.S100000x1) (1 : Fin 2) _ _ _ (ix2 r (0 : Fin 2)) rfl (ix2 r (0 : Fin 1))
    (fun b => match b with | ⟨0, _⟩ => rfl | ⟨1, _⟩ => rfl), asColumn_apply]
  rfl

/-- Column 1 of the packed factors: the out-degree scale. -/
theorem packed_col1 (r : Fin 100000) : packedScales x1 x2 (ix2 r (1 : Fin 2)) = degScale x1 (ix1 r) := by
  unfold packedScales
  rw [concatenate_pair_apply_right (t := Cert.KernelIdeal.S100000x2) (s₁ := Cert.KernelIdeal.S100000x1)
    (s₂ := Cert.KernelIdeal.S100000x1) (1 : Fin 2) _ _ _ (ix2 r (1 : Fin 2)) rfl rfl (ix2 r (0 : Fin 1))
    (fun b hb => match b with | ⟨0, _⟩ => rfl | ⟨1, _⟩ => absurd rfl hb) rfl, asColumn_apply]

/-- A per-node vector clamped below at one, at a node. -/
theorem clampOne_apply (d : Node) (j : Cert.KernelIdeal.S100000.Idx) : clampOne d j = max 1 (d j) := by
  unfold clampOne
  show max (broadcastInDim Cert.KernelIdeal.S100000 ![] Cert.KernelIdeal.Facts₀.bcast_S_S100000
    (id (constant (F := Ideal) Cert.KernelIdeal.S_ .f32 0x3F800000#32)) j) (d j) = _
  rw [broadcastInDim_apply _ Cert.KernelIdeal.Facts₀.bcast_S_S100000 _ j ix0 (fun a => a.elim0)]
  show max (Ideal.ofBits .f32 0x3F800000#32) (d j) = _
  rw [Cert.DegreeScale.ofBits_one]

/-- A degree scale is a nonnegative real at every node. -/
theorem scale_fact (a : Edges) (j : Cert.KernelIdeal.S100000.Idx) : 0 ≤ degScale a j ∧ degScale a j ≠ ⊤ := by
  have e : degScale a j = Ideal.rsqrt (max 1 (degree a j)) := by
    unfold degScale Host.rsqrt
    rw [Ideal.hostUnary_rsqrt_def, clampOne_apply]
  rw [e]; exact Cert.DegreeScale.scale_nonneg_ne_top _

/-! ## The reference's composed indices -/

theorem rowOf_12 (r : Fin 100000) (j : Fin 128) : idx_main_v11 (idx_main_v12 (ix2 r j)) = ix1 r :=
  funext fun a => match a with | ⟨0, _⟩ => rfl
theorem rowOf_25 (r : Fin 100000) (j : Fin 128) : idx_main_v24 (idx_main_v25 (ix2 r j)) = ix1 r :=
  funext fun a => match a with | ⟨0, _⟩ => rfl
theorem rowOf_31 (r : Fin 100000) (j : Fin 128) : idx_main_v30 (idx_main_v31 (ix2 r j)) = ix1 r :=
  funext fun a => match a with | ⟨0, _⟩ => rfl
theorem rowOf_44 (r : Fin 100000) (j : Fin 128) : idx_main_v43 (idx_main_v44 (ix2 r j)) = ix1 r :=
  funext fun a => match a with | ⟨0, _⟩ => rfl
theorem colOf_28 (r : Fin 100000) (j : Fin 128) : idx_main_v27 (idx_main_v28 (ix2 r j)) = ix1 j :=
  funext fun a => match a with | ⟨0, _⟩ => rfl
theorem colOf_48 (r : Fin 100000) (j : Fin 128) : idx_main_v47 (idx_main_v48 (ix2 r j)) = ix1 j :=
  funext fun a => match a with | ⟨0, _⟩ => rfl
theorem lhsOf_46 (r : Fin 100000) (j k : Fin 128) : lidx_main_v46 (ix2 r j) k = ix2 r k :=
  funext fun a => match a with | ⟨0, _⟩ => rfl | ⟨1, _⟩ => rfl
theorem rhsOf_46 (r : Fin 100000) (j k : Fin 128) : ridx_main_v46 (ix2 r j) k = ix2 k j :=
  funext fun a => match a with | ⟨0, _⟩ => rfl | ⟨1, _⟩ => rfl

/-! ## Stage by stage -/

/-- The features times the out-degree scale. -/
theorem stage0_eq : val_main_v13 (F := Ideal) x0 x1 = stage0 x0 x1 := by
  funext i
  obtain ⟨r, j, rfl⟩ : ∃ (r : Fin 100000) (j : Fin 128), i = ix2 r j := ⟨i 0, i 1, eq_ix2 i⟩
  rw [val_main_v13_apply, val_main_v12_apply, val_main_v11_apply, outScale_eq, rowOf_12]
  show x0 (ix2 r j) * degScale x1 (ix1 r) = x0 (ix2 r j) * asColumn (degScale x1) (ix2 r (0 : Fin 1))
  rw [asColumn_apply]

/-- The middle stage: the reference's `(a · p + b) · s` is the kernel's `a · (p · s) + b · s`. -/
theorem stage1_eq : val_main_v32 (F := Ideal) x0 x1 x2 x4 = stage1 x0 x1 x2 x4 := by
  funext i
  obtain ⟨r, j, rfl⟩ : ∃ (r : Fin 100000) (j : Fin 128), i = ix2 r j := ⟨i 0, i 1, eq_ix2 i⟩
  rw [val_main_v32_apply, val_main_v29_apply, val_main_v26_apply, val_main_v31_apply, val_main_v30_apply,
    val_main_v28_apply, val_main_v27_apply, val_main_v25_apply, val_main_v24_apply, sum1_eq, stage0_eq, outScale_eq,
    inScale_eq, rowOf_25, rowOf_31, colOf_28]
  show (neighborSum x1 x2 (stage0 x0 x1) (ix2 r j) * degScale x2 (ix1 r) + x4 (ix1 j)) * degScale x1 (ix1 r)
      = neighborSum x1 x2 (stage0 x0 x1) (ix2 r j) * packedScales x1 x2 (ix2 r (0 : Fin 2))
        + asRow x4 (ix2 (0 : Fin 1) j) * packedScales x1 x2 (ix2 r (1 : Fin 2))
  rw [packed_col0, packed_col1, asRow_apply]
  exact (Cert.DegreeScale.fold_scales _ _ _ _ (scale_fact x1 _).1 (scale_fact x1 _).2).symm

/-- The dense layer: the same sum over the 128 inner indices on both sides. -/
theorem stage2_eq : val_main_v49 (F := Ideal) x0 x1 x2 x3 x4 x5 = stage2 x0 x1 x2 x3 x4 x5 := by
  funext i
  obtain ⟨r, j, rfl⟩ : ∃ (r : Fin 100000) (j : Fin 128), i = ix2 r j := ⟨i 0, i 1, eq_ix2 i⟩
  rw [val_main_v49_apply, val_main_v46_apply, val_main_v48_apply, val_main_v47_apply, colOf_48]
  show (∑ k : Fin 128, val_main_v45 (F := Ideal) x0 x1 x2 x4 (lidx_main_v46 (ix2 r j) k) * x3 (ridx_main_v46 (ix2 r j) k)) + x5 (ix1 j)
      = (∑ k : Fin 128, (neighborSum x1 x2 (stage1 x0 x1 x2 x4) (ix2 r k)
            * asColumn (degScale x2) (ix2 r (0 : Fin 1))) * x3 (ix2 k j))
          + asRow x5 (ix2 (0 : Fin 1) j)
  rw [asRow_apply, asColumn_apply]
  refine congrArg (· + x5 (ix1 j)) (Finset.sum_congr rfl fun k _ => ?_)
  rw [lhsOf_46, rhsOf_46, val_main_v45_apply, val_main_v44_apply, val_main_v43_apply, sum2_eq, stage1_eq, inScale_eq, rowOf_44]
  rfl

/-- The whole reference is the kernel's function of the arguments. -/
theorem result_eq : val_main_v59 (F := Ideal) x0 x1 x2 x3 x4 x5 = result x0 x1 x2 x3 x4 x5 := by
  rw [sum3_eq, stage2_eq]; rfl

end Cert.Bridge

end
-- ==== Proof.lean ====
/-
  A two-layer graph convolution with a final neighbour sum, as three fused row-wise launches between sums over incoming
  edges, against the layer-by-layer reference: equal results on the extended reals.

  With N = 100000 nodes, E = 640000 edges (sources src, destinations dst), features x, weights W and biases b0, b1:
  the degree scales are s = rsqrt (max 1 outdeg) and p = rsqrt (max 1 indeg), and Σ denotes the sum, per destination
  node, of the source nodes' rows over the incoming edges. The reference computes
      h1 = Σ (x · s) · p + b0,      h2 = (Σ (h1 · s) · p) W + b1,      out = Σ h2,
  the kernel
      t0 = x · s,   t2 = Σ t0 · (p · s) + b0 · s,   h2 = (Σ t2 · p) W + b1,   out = Σ h2.
  They differ only in h1 · s = (Σ t0 · p + b0) · s against Σ t0 · (p · s) + b0 · s: multiplication by s distributes
  over the sum because s, an inverse square root of something at least 1, is a nonnegative real — for every input, so
  the precondition is not used. The matrix product is the same sum over the 128 inner indices on both sides (a change
  of float format is the identity on the extended reals), and the sums over incoming edges and the degree counts are
  the same operations in both programs.

  The modules: `Spec` names the stages as whole-array functions; `Stage0`, `Stage1`, `Stage2` show each launch leaves
  its stage in its output array (20 row blocks of 5000 rows covering the matrix); `KernelRun` runs the idealized
  kernel with the result's final contents in the post; `KernelFold` reads those contents back, boundary by boundary, to
  `Spec.result` of the arguments; `Bridge` shows the reference's term is the same function; `DegreeScale` holds the
  algebra. The kernel as printed keeps its arguments (its generated frame); nothing was rewritten on the way to the
  idealized kernel.
-/
import proofs.«130971_j21534966022320_2_alg».proof.Defs
import proofs.«130971_j21534966022320_2_alg».proof.Proof.Gen.Kernel
import proofs.«130971_j21534966022320_2_alg».proof.Proof.Gen.Kernel.Skeleton
import proofs.«130971_j21534966022320_2_alg».proof.Proof.Gen.Kernel.Launch
import proofs.«130971_j21534966022320_2_alg».proof.Proof.Gen.Kernel.Points
import proofs.«130971_j21534966022320_2_alg».proof.Proof.Gen.Kernel.Frame
import proofs.«130971_j21534966022320_2_alg».proof.Proof.Gen.KernelIdeal
import proofs.«130971_j21534966022320_2_alg».proof.Proof.Gen.KernelIdeal.Skeleton
import proofs.«130971_j21534966022320_2_alg».proof.Proof.Gen.KernelIdeal.Launch
import proofs.«130971_j21534966022320_2_alg».proof.Proof.Gen.KernelIdeal.Points
import proofs.«130971_j21534966022320_2_alg».proof.Proof.Gen.KernelIdeal.Frame
import proofs.«130971_j21534966022320_2_alg».proof.Proof.Gen.ReferenceIdeal
import proofs.«130971_j21534966022320_2_alg».proof.Proof.Gen.Pre_finite_inputs
import proofs.«130971_j21534966022320_2_alg».proof.Proof.Gen.ReferenceIdeal.Read
import proofs.«130971_j21534966022320_2_alg».proof.Proof.KernelRun
import proofs.«130971_j21534966022320_2_alg».proof.Proof.KernelFold
import proofs.«130971_j21534966022320_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result array at `Spec.result` of them. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_eq m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v59_eq m' c).trans ?_
    rw [(hagree c).1, (hagree c).2.1, (hagree c).2.2.1, (hagree c).2.2.2.1, (hagree c).2.2.2.2.1, (hagree c).2.2.2.2.2]
    exact Cert.Bridge.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
